-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S1048576 : Shape := ⟨1, ![1048576]⟩
abbrev S10x10 : Shape := ⟨2, ![10, 10]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S10x10 : S_.BroadcastsInDim S10x10 (![] : Fin 0 → Fin S10x10.rank)
  reducesTo_S10x10_S_d0_1 : S10x10.ReducesTo [0, 1] S_

variable [Facts]

def fn_part1 {F : FTy → Type} [FloatOps F] (main_v13 : IVec S_ 1) (main_v16 : IVec S10x10 1) : IVec S_ 1 :=
  let main_c_5 : IVec S_ 1 := constantI S_ 1 1#1
  let main_v17 : IVec S_ 1 := (fun x v => Host.reduce IntOp.andi x v reducesTo_S10x10_S_d0_1 h_S_) main_v16 main_c_5
  let main_v18 : IVec S_ 1 := andi main_v13 main_v17
  main_v18

def fn {F : FTy → Type} [FloatOps F] (main_arg0 : FVec F S1048576x64 .f32) (main_arg1 : FVec F S1048576x64 .f32) (main_arg2 : FVec F S1048576x64 .f32) (main_arg3 : IVec S1048576 32) (main_arg4 : IVec S1048576 32) (main_arg5 : FVec F S10x10 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S1048576x64 .f32 := Host.absf main_arg1
  let main_cst_0 : FVec F S_ .f32 := constant S_ .f32 0x7F800000#32
  let main_v5 : FVec F S1048576x64 .f32 := broadcastInDim S1048576x64 ![] bcast_S_S1048576x64 main_cst_0
  let main_v6 : IVec S1048576x64 1 := cmpf .olt main_v4 main_v5
  let main_c_1 : IVec S_ 1 := constantI S_ 1 1#1
  let main_v7 : IVec S_ 1 := (fun x v => Host.reduce IntOp.andi x v reducesTo_S1048576x64_S_d0_1 h_S_) main_v6 main_c_1
  let main_v8 : IVec S_ 1 := andi main_v3 main_v7
  let main_v9 : FVec F S1048576x64 .f32 := Host.absf main_arg2
  let main_cst_2 : FVec F S_ .f32 := constant S_ .f32 0x7F800000#32
  let main_v10 : FVec F S1048576x64 .f32 := broadcastInDim S1048576x64 ![] bcast_S_S1048576x64 main_cst_2
  let main_v11 : IVec S1048576x64 1 := cmpf .olt main_v9 main_v10
  let main_c_3 : IVec S_ 1 := constantI S_ 1 1#1
  let main_v12 : IVec S_ 1 := (fun x v => Host.reduce IntOp.andi x v reducesTo_S1048576x64_S_d0_1 h_S_) main_v11 main_c_3
  let main_v13 : IVec S_ 1 := andi main_v8 main_v12
  let main_v14 : FVec F S10x10 .f32 := Host.absf main_arg5
  let main_cst_4 : FVec F S_ .f32 := constant S_ .f32 0x7F800000#32
  let main_v15 : FVec F S10x10 .f32 := broadcastInDim S10x10 ![] bcast_S_S10x10 main_cst_4
  let main_v16 : IVec S10x10 1 := cmpf .olt main_v14 main_v15
  fn_part1 (F := F) main_v13 main_v16
-- ==== Kernel.lean ====
abbrev S1048576x64 : Shape := ⟨2, ![1048576, 64]⟩
abbrev S1048576 : Shape := ⟨1, ![1048576]⟩
abbrev S10x10 : Shape := ⟨2, ![10, 10]⟩
abbrev S_ : Shape := ⟨0, ![]⟩
abbrev S1048576x1 : Shape := ⟨2, ![1048576, 1]⟩
abbrev S1048576x2 : Shape := ⟨2, ![1048576, 2]⟩
abbrev S8192x128 : Shape := ⟨2, ![8192, 128]⟩
abbrev S2x8x128 : Shape := ⟨3, ![2, 8, 128]⟩
abbrev S8192x64 : Shape := ⟨2, ![8192, 64]⟩
abbrev S64x128 : Shape := ⟨2, ![64, 128]⟩
abbrev S1x8x128 : Shape := ⟨3, ![1, 8, 128]⟩
abbrev S8192 : Shape := ⟨1, ![8192]⟩
abbrev S1x64x128 : Shape := ⟨3, ![1, 64, 128]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩

abbrev nBuf : Space → Nat
  | .hbm => 32
  | .vmem => 10
  | .smem => 0
  | _ => 0

abbrev bufTy : (tb : Table) → Fin (tcTables nBuf tb) → BufTy
  | .hbm, ⟨0, _⟩ => ⟨S1048576x64, .f32⟩
  | .hbm, ⟨1, _⟩ => ⟨S1048576x64, .f32⟩
  | .hbm, ⟨2, _⟩ => ⟨S1048576x64, .f32⟩
  | .hbm, ⟨3, _⟩ => ⟨S1048576, .i32⟩
  | .hbm, ⟨4, _⟩ => ⟨S1048576, .i32⟩
  | .hbm, ⟨5, _⟩ => ⟨S10x10, .f32⟩
  | .hbm, ⟨6, _⟩ => ⟨S_, .i32⟩
  | .hbm, ⟨7, _⟩ => ⟨S1048576, .i32⟩
  | .hbm, ⟨8, _⟩ => ⟨S1048576, .i1⟩
  | .hbm, ⟨9, _⟩ => ⟨S_, .i32⟩
  | .hbm, ⟨10, _⟩ => ⟨S1048576, .i32⟩
  | .hbm, ⟨11, _⟩ => ⟨S1048576, .i32⟩
  | .hbm, ⟨12, _⟩ => ⟨S1048576, .i32⟩
  | .hbm, ⟨13, _⟩ => ⟨S_, .i32⟩
  | .hbm, ⟨14, _⟩ => ⟨S1048576, .i32⟩
  | .hbm, ⟨15, _⟩ => ⟨S1048576, .i1⟩
  | .hbm, ⟨16, _⟩ => ⟨S_, .i32⟩
  | .hbm, ⟨17, _⟩ => ⟨S1048576, .i32⟩
  | .hbm, ⟨18, _⟩ => ⟨S1048576, .i32⟩
  | .hbm, ⟨19, _⟩ => ⟨S1048576, .i32⟩
  | .hbm, ⟨20, _⟩ => ⟨S1048576x1, .i32⟩
  | .hbm, ⟨21, _⟩ => ⟨S1048576x1, .i32⟩
  | .hbm, ⟨22, _⟩ => ⟨S1048576x2, .i32⟩
  | .hbm, ⟨23, _⟩ => ⟨S1048576, .f32⟩
  | .hbm, ⟨24, _⟩ => ⟨S8192x128, .f32⟩
  | .hbm, ⟨25, _⟩ => ⟨S2x8x128, .f32⟩
  | .hbm, ⟨26, _⟩ => ⟨S2x1x1, .f32⟩
  | .hbm, ⟨27, _⟩ => ⟨S2, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S8192x64, .f32⟩
  | .local _ .vmem, ⟨1, _⟩ => ⟨S8192x64, .f32⟩
  | .local _ .vmem, ⟨2, _⟩ => ⟨S8192x64, .f32⟩
  | .local _ .vmem, ⟨3, _⟩ => ⟨S8192x64, .f32⟩
  | .local _ .vmem, ⟨4, _⟩ => ⟨S8192x64, .f32⟩
  | .local _ .vmem, ⟨5, _⟩ => ⟨S8192x64, .f32⟩
  | .local _ .vmem, ⟨6, _⟩ => ⟨S64x128, .f32⟩
  | .local _ .vmem, ⟨7, _⟩ => ⟨S64x128, .f32⟩
  | .local _ .vmem, ⟨8, _⟩ => ⟨S1x8x128, .f32⟩
  | .local _ .vmem, ⟨9, _⟩ => ⟨S1x8x128, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  shapeCasts_S1048576_S8192x128 : S1048576.ShapeCasts S8192x128
  inb_S1x8x128_S1x8x128_0_0_0 : ∀ a, (![0, 0, 0] : Fin 3 → Nat) a + S1x8x128.size a ≤ S1x8x128.size a
  h_S1x8x128 : 0 < S1x8x128.numel
  inb_S8192x64_S8192x64_0_0 : ∀ a, (![0, 0] : Fin 2 → Nat) a + S8192x64.size a ≤ S8192x64.size a
  h_S8192x64 : 0 < S8192x64.numel
  reduces_S8192x64_S8192 : S8192x64.Reduces [1] S8192
  shapeCasts_S8192_S64x128 : S8192.ShapeCasts S64x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S64x128_S1x64x128 : S64x128.ShapeCasts S1x64x128
  reduces_S1x64x128_S1 : S1x64x128.Reduces [1, 2] S1
  shapeCasts_S1_S1x1x1 : S1.ShapeCasts S1x1x1
  inpos_S1x1x1_p0_0_0 : ∀ a, (![0, 0, 0] : Fin 3 → Nat) a < S1x1x1.size a
  shapeCasts_S1x8x128_S1x8x128 : S1x8x128.ShapeCasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  gather_S10x10_S1048576x2_S1048576_n_01_n_n_01_1_11_wf : GatherDims.WF S10x10 S1048576x2 S1048576 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S1048576x64.size a
  hwx0_0 : ∀ i : grid0.Coords, EltTy.bits .f32 = 32 ∨ (Rect.block (s := S1048576x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S1048576x64.size a
  hwx0_1 : ∀ i : grid0.Coords, EltTy.bits .f32 = 32 ∨ (Rect.block (s := S1048576x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S1048576x64.size a
  hwx0_2 : ∀ i : grid0.Coords, EltTy.bits .f32 = 32 ∨ (Rect.block (s := S1048576x64) S8192x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S8192x128.size a
  hwx0_3 : ∀ i : grid0.Coords, EltTy.bits .f32 = 32 ∨ (Rect.block (s := S8192x128) S64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)

variable [Facts₀]

def gather_S10x10_S1048576x2_S1048576_n_01_n_n_01_1_11 : GatherDims S10x10 S1048576x2 S1048576 where
  offsetDims := []
  collapsedSliceDims := [0, 1]
  operandBatchingDims := []
  startIndicesBatchingDims := []
  startIndexMap := [0, 1]
  indexVectorDim := 1
  sliceSizes := ![1, 1]
  wf := gather_S10x10_S1048576x2_S1048576_n_01_n_n_01_1_11_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S64x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S1048576 : Shape := ⟨1, ![1048576]⟩
abbrev S10x10 : Shape := ⟨2, ![10, 10]⟩
abbrev S_ : Shape := ⟨0, ![]⟩
abbrev S1048576x1 : Shape := ⟨2, ![1048576, 1]⟩
abbrev S1048576x2 : Shape := ⟨2, ![1048576, 2]⟩

abbrev nBuf : Space → Nat
  | .hbm => 41
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S1048576x64, .f32⟩
  | .hbm, ⟨2, _⟩ => ⟨S1048576x64, .f32⟩
  | .hbm, ⟨3, _⟩ => ⟨S1048576, .i32⟩
  | .hbm, ⟨4, _⟩ => ⟨S1048576, .i32⟩
  | .hbm, ⟨5, _⟩ => ⟨S10x10, .f32⟩
  | .hbm, ⟨6, _⟩ => ⟨S1048576x64, .f32⟩
  | .hbm, ⟨7, _⟩ => ⟨S1048576x64, .f32⟩
  | .hbm, ⟨8, _⟩ => ⟨S_, .f32⟩
  | .hbm, ⟨9, _⟩ => ⟨S1048576, .f32⟩
  | .hbm, ⟨10, _⟩ => ⟨S1048576x64, .f32⟩
  | .hbm, ⟨11, _⟩ => ⟨S1048576x64, .f32⟩
  | .hbm, ⟨12, _⟩ => ⟨S_, .f32⟩
  | .hbm, ⟨13, _⟩ => ⟨S1048576, .f32⟩
  | .hbm, ⟨14, _⟩ => ⟨S_, .i32⟩
  | .hbm, ⟨15, _⟩ => ⟨S1048576, .i32⟩
  | .hbm, ⟨16, _⟩ => ⟨S1048576, .i1⟩
  | .hbm, ⟨17, _⟩ => ⟨S_, .i32⟩
  | .hbm, ⟨18, _⟩ => ⟨S1048576, .i32⟩
  | .hbm, ⟨19, _⟩ => ⟨S1048576, .i32⟩
  | .hbm, ⟨20, _⟩ => ⟨S1048576, .i32⟩
  | .hbm, ⟨21, _⟩ => ⟨S_, .i32⟩
  | .hbm, ⟨22, _⟩ => ⟨S1048576, .i32⟩
  | .hbm, ⟨23, _⟩ => ⟨S1048576, .i1⟩
  | .hbm, ⟨24, _⟩ => ⟨S_, .i32⟩
  | .hbm, ⟨25, _⟩ => ⟨S1048576, .i32⟩
  | .hbm, ⟨26, _⟩ => ⟨S1048576, .i32⟩
  | .hbm, ⟨27, _⟩ => ⟨S1048576, .i32⟩
  | .hbm, ⟨28, _⟩ => ⟨S1048576x1, .i32⟩
  | .hbm, ⟨29, _⟩ => ⟨S1048576x1, .i32⟩
  | .hbm, ⟨30, _⟩ => ⟨S1048576x2, .i32⟩
  | .hbm, ⟨31, _⟩ => ⟨S1048576, .f32⟩
  | .hbm, ⟨32, _⟩ => ⟨S1048576, .f32⟩
  | .hbm, ⟨33, _⟩ => ⟨S1048576, .f32⟩
  | .hbm, ⟨34, _⟩ => ⟨S_, .f32⟩
  | .hbm, ⟨35, _⟩ => ⟨S1048576, .f32⟩
  | .hbm, ⟨36, _⟩ => ⟨S1048576, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_cst : Ref sig .tc := ⟨.hbm, 34, rfl⟩
abbrev main_call0_v0 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩

abbrev nD : Nat := 1
abbrev τ : Topo := Topo.v7x

variable {F : FTy → Type} [FloatOps F]

class Facts₀ : Prop where
  reducesTo_S1048576x64_S1048576_d1 : S1048576x64.ReducesTo [1] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  reducesTo_S1048576_S_d0 : S1048576.ReducesTo [0] S_
  gather_S10x10_S1048576x2_S1048576_n_01_n_n_01_1_11_wf : GatherDims.WF S10x10 S1048576x2 S1048576 [] [0, 1] [] [0, 1] [] 1 ![1, 1]

variable [Facts₀]

def gather_S10x10_S1048576x2_S1048576_n_01_n_n_01_1_11 : GatherDims S10x10 S1048576x2 S1048576 where
  offsetDims := []
  collapsedSliceDims := [0, 1]
  operandBatchingDims := []
  startIndicesBatchingDims := []
  startIndexMap := [0, 1]
  indexVectorDim := 1
  sliceSizes := ![1, 1]
  wf := gather_S10x10_S1048576x2_S1048576_n_01_n_n_01_1_11_wf

class Facts : Prop extends Facts₀ where

variable [Facts]
-- ==== Proof.CaseValues.lean ====
/-
  What one grid step leaves in the accumulator block, in each of its two cases.

  At the first step of a run of 64 (the step index divisible by 64) the block is first cleared, then read back and the
  tile's total added: it ends at `0 + tile`.  At every other step the block is read as the step before left it, and
  the tile's total is added.  In both cases the stored value is the step's payload, applied to the blocks read and to
  the accumulator's contents (the cleared block in the first case).
-/
import proofs.«144376_j25890062860767_2_alg».proof.Proof.Gen.KernelIdeal.Frame
import Idealize.ShloMosaic.Lib.Pipeline.Value
import Idealize.ShloMosaic.Lib.Tactic

noncomputable section

namespace Cert.KernelIdeal.CaseValues

open Cert.KernelIdeal Cert.KernelIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A step that is not the first of its run: the payload over the accumulator as the step before left it. -/
theorem out_B (c : Dev nD) (i : grid0.Coords) (arg2 : Memref sig .tc .vmem S8192x64 .f32) (harg2 : arg2.IsWhole)
    (arg3 : Memref sig .tc .vmem S8192x64 .f32) (harg3 : arg3.IsWhole) (arg4 : Memref sig .tc .vmem S8192x64 .f32) (harg4 : arg4.IsWhole)
    (arg5 : Memref sig .tc .vmem S64x128 .f32) (harg5 : arg5.IsWhole) (arg6 : Memref sig .tc .vmem S1x8x128 .f32) (harg6 : arg6.IsWhole)
    (hc0 : ¬cond0_0 i) (x0 x1 x2 : Vec F S8192x64 .f32) (x3 : Vec F S64x128 .f32) (xo4 : Vec F S1x8x128 .f32) :
    out0_B_4 c i arg2 harg2 arg3 harg3 arg4 harg4 arg5 harg5 arg6 harg6 hc0 x0 x1 x2 x3 xo4 = k0_pay2 x0 x1 x2 x3 xo4 := by
  unfold out0_B_4
  rw [View.read_writes_eq_canon _ _ _ (cover0_B_4 c i arg2 harg2 arg3 harg3 arg4 harg4 arg5 harg5 arg6 harg6 hc0 x0 x1 x2 x3 xo4)]
  unfold kernelRun0_B
  dsimp only
  rw [View.canon_unit_zero hz3]
  simp only [View.readAt_eq_ld, harg2.read_unread, harg3.read_unread, harg4.read_unread, harg5.read_unread, harg6.read_unread,
    View.ld_unit_zero (S := S8192x64) hz2, View.ld_unit_zero (S := S64x128) hz2, View.ld_unit_zero (S := S1x8x128) hz3]

/-- The first step of a run: the payload over the cleared accumulator. -/
theorem out_A (c : Dev nD) (i : grid0.Coords) (arg2 : Memref sig .tc .vmem S8192x64 .f32) (harg2 : arg2.IsWhole)
    (arg3 : Memref sig .tc .vmem S8192x64 .f32) (harg3 : arg3.IsWhole) (arg4 : Memref sig .tc .vmem S8192x64 .f32) (harg4 : arg4.IsWhole)
    (arg5 : Memref sig .tc .vmem S64x128 .f32) (harg5 : arg5.IsWhole) (arg6 : Memref sig .tc .vmem S1x8x128 .f32) (harg6 : arg6.IsWhole)
    (hc0 : cond0_0 i) (x0 x1 x2 : Vec F S8192x64 .f32) (x3 : Vec F S64x128 .f32) :
    out0_A_4 c i arg2 harg2 arg3 harg3 arg4 harg4 arg5 harg5 arg6 harg6 hc0 x0 x1 x2 x3 = k0_pay2 x0 x1 x2 x3 (k0_pay1 (F := F)) := by
  unfold out0_A_4
  rw [View.read_writes_eq_canon _ _ _ (cover0_A_4 c i arg2 harg2 arg3 harg3 arg4 harg4 arg5 harg5 arg6 harg6 hc0 x0 x1 x2 x3)]
  unfold kernelRun0_A
  dsimp only
  sl_unfold_words
  rw [View.canon_cons_unit_zero (S := S1x8x128) hz3, View.readCov_unit_zero (S := S1x8x128) _ hz3]
  simp only [View.readAt_eq_ld, harg2.read_unread, harg3.read_unread, harg4.read_unread, harg5.read_unread,
    View.ld_unit_zero (S := S8192x64) hz2, View.ld_unit_zero (S := S64x128) hz2]

end Cert.KernelIdeal.CaseValues

end
-- ==== Proof.LibUnitAxisSums.lean ====
/-
  General lemmas about unit axes and sums over index sets, independent of any program.

  * `shapeCast_a_a1_apply`: a vector of length `a` viewed as a column `[a, 1]` (a row reduction kept with
    `keepdims=True`) reads, at `(i, u)`, the vector's entry `i`.
  * `sum_idx1`: a sum over the index set of a rank-1 shape `[n]` is the sum over `Fin n`.
  * `sum_idx_1n1`: a sum over the index set of the shape `[1, n, 1]` is the sum over its middle coordinate.
  * `sum_fin_blocks`: a sum over `Fin (q * n)` cut into `q` consecutive blocks of `n`:
    `∑ i, g i = ∑ b, ∑ r, g (n * b + r)`.
-/
import Idealize.ShloMosaic.Lib.Pipeline.Value
import Idealize.ShloMosaic.Lib.ValueIdx

noncomputable section

open scoped BigOperators

namespace Idealize.ShloMosaic.ValueIdx

open Idealize.ShloMosaic

variable {α : Type}

/-- An `[a]` array cast to the column `[a, 1]` reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index set of the rank-1 shape `[n]` is `Fin n` … -/
def idxEquiv1 {n : Nat} : (⟨1, ![n]⟩ : Shape).Idx ≃ Fin n where
  toFun i := i 0
  invFun r := ix1 r
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ r : Fin n, f (ix1 r) := by
  rw [← Equiv.sum_comp (idxEquiv1 (n := n)).symm f]
  rfl

/-- The index set of the shape `[1, n, 1]` is `Fin n`: the two unit coordinates are `0`. -/
def idxEquiv_1n1 {n : Nat} : (⟨3, ![1, n, 1]⟩ : Shape).Idx ≃ Fin n where
  toFun i := i 1
  invFun r := ix3 (0 : Fin 1) r (0 : Fin 1)
  left_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idx_1n1 {M : Type*} [AddCommMonoid M] {n : Nat} (f : (⟨3, ![1, n, 1]⟩ : Shape).Idx → M) :
    ∑ i, f i = ∑ r : Fin n, f (ix3 (0 : Fin 1) r (0 : Fin 1)) := by
  rw [← Equiv.sum_comp (idxEquiv_1n1 (n := n)).symm f]
  rfl

/-- A sum over `q * n` consecutive positions, cut into `q` blocks of `n`. -/
theorem sum_fin_blocks {M : Type*} [AddCommMonoid M] (q n : Nat) (g : Fin (q * n) → M) :
    ∑ i, g i = ∑ b : Fin q, ∑ r : Fin n, g ⟨n * b.val + r.val, by
      have hb := b.isLt; have hr := r.isLt
      calc n * b.val + r.val < n * b.val + n := by omega
        _ = n * (b.val + 1) := by ring
        _ ≤ n * q := Nat.mul_le_mul_left n hb
        _ = q * n := Nat.mul_comm n q⟩ := by
  rw [← Equiv.sum_comp (finProdFinEquiv : Fin q × Fin n ≃ Fin (q * n)) g, Fintype.sum_prod_type]
  refine Finset.sum_congr rfl fun b _ => Finset.sum_congr rfl fun r _ => congrArg g (Fin.ext ?_)
  show r.val + n * b.val = n * b.val + r.val
  omega

end Idealize.ShloMosaic.ValueIdx

end
-- ==== Proof.LossSpec.lean ====
/-
  The triplet loss with per-pair margins, as a function of the argument arrays over the extended reals.

  For anchor, positive and negative rows `a i`, `p i`, `n i` (64 features each) and a margin `mg i` per row, row `i`
  contributes the hinge `max (‖a i − p i‖² − ‖a i − n i‖² + mg i) 0`; the loss is the sum of the hinges over all
  1048576 rows (the mean's division by the row count is applied to this sum by both programs alike).

  A sum in the extended reals may be regrouped freely (addition there is commutative and associative), so the sum over
  all rows is the sum, over 128 consecutive tiles of 8192 rows, of each tile's sum, and the 128 tiles may in turn be
  grouped as 2 runs of 64 consecutive tiles: `total_eq_runs`. No finiteness of the inputs is needed.
-/
import Idealize.ShloMosaic.PureOps.Ideal
import Idealize.ShloMosaic.Lib.ValueIdx
import proofs.«144376_j25890062860767_2_alg».proof.Proof.LibUnitAxisSums

noncomputable section

open scoped BigOperators

namespace Cert.TripletLoss

open Idealize.ShloMosaic Idealize.ShloMosaic.ValueIdx

/-- The squared euclidean distance of row `q` of two arrays with 64 columns. -/
def sqd {R : ℕ} (x y : (⟨2, ![R, 64]⟩ : Shape).Idx → EReal) (q : Fin R) : EReal :=
  ∑ k : Fin 64, (x (ix2 q k) - y (ix2 q k)) * (x (ix2 q k) - y (ix2 q k))

/-- Row `q`'s hinge: the positive distance minus the negative distance plus the row's margin, cut at zero. -/
def hinge {R : ℕ} (a p n : (⟨2, ![R, 64]⟩ : Shape).Idx → EReal) (mg : Fin R → EReal) (q : Fin R) : EReal :=
  max (sqd a p q - sqd a n q + mg q) 0

/-- The sum of the hinges of all rows. -/
def total {R : ℕ} (a p n : (⟨2, ![R, 64]⟩ : Shape).Idx → EReal) (mg : Fin R → EReal) : EReal :=
  ∑ q : Fin R, hinge a p n mg q

/-- Position `(r / 128, r % 128)` of a 64 × 128 tile: where entry `r` of a vector of 8192 sits when the vector is laid
    out row-major as 64 × 128. -/
def unflat (r : Fin 8192) : (⟨2, ![64, 128]⟩ : Shape).Idx :=
  ix2 (⟨r.val / 128, by have := r.isLt; omega⟩ : Fin 64) (⟨r.val % 128, by omega⟩ : Fin 128)

/-- Row `8192 · t + q` of the 1048576 rows, for a tile `t < 128`. -/
def tileRow (t : ℕ) (ht : t < 128) (q : Fin 8192) : Fin 1048576 :=
  ⟨8192 * t + q.val, by have := q.isLt; omega⟩

/-- Tile `t`'s share of the loss: the hinges of rows `8192 t … 8192 t + 8191` (zero past the last tile). -/
def tileLoss (a p n : (⟨2, ![1048576, 64]⟩ : Shape).Idx → EReal) (mg : Fin 1048576 → EReal) (t : ℕ) : EReal :=
  if ht : t < 128 then ∑ q : Fin 8192, hinge a p n mg (tileRow t ht q) else 0

/-- A tile of 8192 rows whose entries are rows `8192 t …` of the full arrays has tile `t`'s share as its own total. -/
theorem total_tile (a p n : (⟨2, ![1048576, 64]⟩ : Shape).Idx → EReal) (mg : Fin 1048576 → EReal)
    (x0 x1 x2 : (⟨2, ![8192, 64]⟩ : Shape).Idx → EReal) (mt : Fin 8192 → EReal) (t : ℕ) (ht : t < 128)
    (h0 : ∀ (q : Fin 8192) (k : Fin 64), x0 (ix2 q k) = a (ix2 (tileRow t ht q) k))
    (h1 : ∀ (q : Fin 8192) (k : Fin 64), x1 (ix2 q k) = p (ix2 (tileRow t ht q) k))
    (h2 : ∀ (q : Fin 8192) (k : Fin 64), x2 (ix2 q k) = n (ix2 (tileRow t ht q) k))
    (h3 : ∀ q : Fin 8192, mt q = mg (tileRow t ht q)) :
    total x0 x1 x2 mt = tileLoss a p n mg t := by
  unfold total tileLoss
  rw [dif_pos ht]
  refine Finset.sum_congr rfl fun q _ => ?_
  unfold hinge sqd
  rw [h3 q]
  simp only [h0, h1, h2]

/-- The loss is the sum of the 128 tiles' shares, grouped as 2 runs of 64 consecutive tiles. -/
theorem total_eq_runs (a p n : (⟨2, ![1048576, 64]⟩ : Shape).Idx → EReal) (mg : Fin 1048576 → EReal) :
    total a p n mg = ∑ g : Fin 2, ∑ s ∈ Finset.range 64, tileLoss a p n mg (64 * g.val + s) := by
  unfold total
  rw [sum_fin_blocks 128 8192 (fun i => hinge a p n mg i), sum_fin_blocks 2 64]
  refine Finset.sum_congr rfl fun g _ => ?_
  rw [← Fin.sum_univ_eq_sum_range (fun s => tileLoss a p n mg (64 * g.val + s)) 64]
  refine Finset.sum_congr rfl fun s _ => ?_
  have hg := g.isLt
  have hs := s.isLt
  unfold tileLoss
  rw [dif_pos (by omega : 64 * g.val + s.val < 128)]
  rfl

end Cert.TripletLoss

end
-- ==== Proof.TilePayload.lean ====
/-
  What one grid step adds to its accumulator, as a value.

  The step reads a tile of 8192 rows of the anchor, positive and negative arrays and the tile's 64 × 128 margins, and adds
  ONE number to every entry of its 1 × 8 × 128 accumulator block: the sum over the tile's rows of the hinge
  `max (‖a − p‖² − ‖a − n‖² + margin) 0`.  Row `r` of the tile takes its margin from position `(r / 128, r % 128)` of the
  margin tile: the row distances, a vector of 8192 entries, are laid out row-major as 64 × 128 before the margins are added.
-/
import proofs.«144376_j25890062860767_2_alg».proof.Proof.Gen.KernelIdeal.Skeleton
import proofs.«144376_j25890062860767_2_alg».proof.Proof.LossSpec
import Idealize.ShloMosaic.Lib.Pipeline.Value
import Idealize.ShloMosaic.PureOps.Ideal.Laws

noncomputable section

open scoped BigOperators

namespace Cert.KernelIdeal.TileValue

open Cert.KernelIdeal Cert.KernelIdeal.Gen Idealize.ShloMosaic Idealize.ShloMosaic.ValueIdx Cert.TripletLoss

/-- The row-major cast of a vector of 8192 to 64 × 128 matches entry `r` with position `(r / 128, r % 128)`. -/
theorem reshape_symm_ix1 (r : Fin 8192) :
    (Shape.reshapeEquiv shapeCasts_S8192_S64x128).symm (ix1 r) = unflat r := by
  refine (Equiv.symm_apply_eq _).mpr (Shape.reshapeEquiv_eq_of_rowMajor shapeCasts_S8192_S64x128 ?_).symm
  rw [Shape.rowMajor_val_one, Shape.rowMajor_val_two]
  show r.val = r.val / 128 * 128 + r.val % 128
  omega

/-- A lane sum over the 64 columns, read at row `r`. -/
theorem rowSum_apply (v : FVec Ideal S8192x64 .f32) (r : Fin 8192) :
    multiReduction .add [1] S8192 v 0x00000000#32 reduces_S8192x64_S8192 (.inl rfl) rfl (ix1 r) = ∑ k : Fin 64, v (ix2 r k) :=
  (Ideal.multiReduction_add_single v 0x00000000#32 reduces_S8192x64_S8192 (.inl rfl) rfl (ix1 r)).trans
    (Finset.sum_congr rfl fun k _ => congrArg v (funext fun a => Fin.ext (by match a with | ⟨0, _⟩ => rfl | ⟨1, _⟩ => rfl)))

/-- The sum of a whole 64 × 128 tile, taken as the kernel takes it (cast to 1 × 64 × 128, both tile axes summed into
    one entry, that entry extracted), is the sum over the tile's positions. -/
theorem tileScalar (W : FVec Ideal S64x128 .f32) :
    extractAt ![0, 0, 0] (shapeCast S1x1x1 (multiReduction .add [1, 2] S1 (shapeCast S1x64x128 W shapeCasts_S64x128_S1x64x128)
      0x00000000#32 reduces_S1x64x128_S1 (.inl rfl) rfl) shapeCasts_S1_S1x1x1) inpos_S1x1x1_p0_0_0 = ∑ j : S64x128.Idx, W j := by
  unfold extractAt
  refine (shapeCast_apply _ shapeCasts_S1_S1x1x1 _ (ix1 (0 : Fin 1)) ?_).trans ?_
  · rw [Shape.rowMajor_val_one, Shape.rowMajor_val_three]; rfl
  refine (Ideal.multiReduction_add_total _ 0x00000000#32 reduces_S1x64x128_S1 (fun b => by match b with | ⟨0, _⟩ => rfl) (.inl rfl) rfl _).trans ?_
  exact Equiv.sum_comp (Shape.reshapeEquiv shapeCasts_S64x128_S1x64x128) W

/-- The tile's sum re-indexed by the rows: position `(r / 128, r % 128)` holds row `r`'s distance difference. -/
theorem sum_tile (u : FVec Ideal S8192 .f32) (x3 : FVec Ideal S64x128 .f32) (c : EReal) :
    ∑ j : S64x128.Idx, max (shapeCast S64x128 u shapeCasts_S8192_S64x128 j + x3 j) c
      = ∑ r : Fin 8192, max (u (ix1 r) + x3 (unflat r)) c := by
  let f : S8192.Idx → EReal := fun q => max (u q + x3 ((Shape.reshapeEquiv shapeCasts_S8192_S64x128).symm q)) c
  have e1 : ∀ j : S64x128.Idx, max (shapeCast S64x128 u shapeCasts_S8192_S64x128 j + x3 j) c
      = f (Shape.reshapeEquiv shapeCasts_S8192_S64x128 j) := fun j => by
    show _ = max (u _ + x3 ((Shape.reshapeEquiv shapeCasts_S8192_S64x128).symm (Shape.reshapeEquiv shapeCasts_S8192_S64x128 j))) c
    rw [Equiv.symm_apply_apply]; rfl
  calc _ = ∑ j, f (Shape.reshapeEquiv shapeCasts_S8192_S64x128 j) := Finset.sum_congr rfl fun j _ => e1 j
    _ = ∑ q, f q := Equiv.sum_comp (Shape.reshapeEquiv shapeCasts_S8192_S64x128) f
    _ = ∑ r : Fin 8192, f (ix1 r) := sum_idx1 f
    _ = _ := Finset.sum_congr rfl fun r _ => by
      show max (u (ix1 r) + x3 ((Shape.reshapeEquiv shapeCasts_S8192_S64x128).symm (ix1 r))) c = _
      rw [reshape_symm_ix1]

/-- One step's payload at an entry `y` of the accumulator block: the accumulator's entry plus the tile's total. -/
theorem pay2_apply (x0 x1 x2 : Vec Ideal S8192x64 .f32) (x3 : Vec Ideal S64x128 .f32) (xo : Vec Ideal S1x8x128 .f32)
    (y : S1x8x128.Idx) :
    k0_pay2 (F := Ideal) x0 x1 x2 x3 xo y = xo y + total x0 x1 x2 (fun r => x3 (unflat r)) := by
  unfold k0_pay2
  dsimp only
  show (shapeCast S1x8x128 xo shapeCasts_S1x8x128_S1x8x128 y : EReal) + _ = _
  refine (congrArg₂ (· + ·) (congrFun (shapeCast_self xo _) y) (tileScalar _)).trans (congrArg (xo y + ·) ?_)
  rw [shapeCast_self x3]
  refine (sum_tile _ x3 (Ideal.ofBits .f32 0x00000000#32)).trans ?_
  unfold total hinge sqd
  refine Finset.sum_congr rfl fun r _ => ?_
  exact congrArg₂ max (congrArg₂ (· + ·) (congrArg₂ (· - ·) (rowSum_apply _ r) (rowSum_apply _ r)) rfl) Ideal.ofBits_zero_f32

end Cert.KernelIdeal.TileValue

end
-- ==== Proof.BlockReads.lean ====
/-
  The blocks one grid step reads, as entries of the argument arrays.

  Grid point `t` (of 128) reads rows `8192 t … 8192 t + 8191` of the anchor, positive and negative arrays, and rows
  `64 t … 64 t + 63` of the margins laid out as 8192 × 128 — the margins of the same 8192 rows, because the margin of
  row `i` sits at position `(i / 128, i % 128)` of that layout.
-/
import proofs.«144376_j25890062860767_2_alg».proof.Proof.Gen.KernelIdeal.Frame.Runs
import proofs.«144376_j25890062860767_2_alg».proof.Proof.LossSpec
import Idealize.ShloMosaic.Lib.Pipeline.Value
import Idealize.ShloMosaic.Lib.StableHlo.Run

noncomputable section

namespace Cert.KernelIdeal.BlockReads

open Cert.KernelIdeal Cert.KernelIdeal.Gen Idealize.ShloMosaic Idealize.ShloMosaic.TcCoe Idealize.SL.Sem
open Idealize.ShloMosaic.ValueIdx Cert.TripletLoss

variable {F : FTy → Type} [FloatOps F]
variable (m : (ℓ : Loc nD τ sig) → Buf (Elt F) ℓ)

/-- The per-row margins: entry `(label₃ i, label₄ i)` of the margin matrix, the labels wrapped once when negative. -/
def marginVec (x3 x4 : (⟨S1048576, .i32⟩ : BufTy).Contents (Elt F)) (x5 : (⟨S10x10, .f32⟩ : BufTy).Contents (Elt F)) :
    (⟨S1048576, .f32⟩ : BufTy).Contents (Elt F) :=
  Host.gather gather_S10x10_S1048576x2_S1048576_n_01_n_n_01_1_11 x5
    (concatenate S1048576x2 1
      [⟨S1048576x1, broadcastInDim S1048576x1 ![0] bcast_S1048576_S1048576x1_0
          (select (cmpi .slt x3 (broadcastInDim S1048576 ![] bcast_S_S1048576 (constantI S_ 32 0#32)))
            (addi x3 (broadcastInDim S1048576 ![] bcast_S_S1048576 (constantI S_ 32 10#32))) x3)⟩,
       ⟨S1048576x1, broadcastInDim S1048576x1 ![0] bcast_S1048576_S1048576x1_0
          (select (cmpi .slt x4 (broadcastInDim S1048576 ![] bcast_S_S1048576 (constantI S_ 32 0#32)))
            (addi x4 (broadcastInDim S1048576 ![] bcast_S_S1048576 (constantI S_ 32 10#32))) x4)⟩]
      concatenates_S1048576x1_S1048576x1_S1048576x2_d1)

set_option maxHeartbeats 2000000 in
/-- The margin array the region finds: the per-row margins laid out row-major as 8192 × 128. -/
theorem V_main_v14 (c : Dev nD) :
    V m c main_v14
      = shapeCast S8192x128 (marginVec (m ((c : Thread nD τ).loc main_arg3)) (m ((c : Thread nD τ).loc main_arg4))
          (m ((c : Thread nD τ).loc main_arg5))) shapeCasts_S1048576_S8192x128 := by
  unfold V V0
  rw [List.flatten_cons, List.flatten_nil, List.append_nil]
  unfold hostOps0
  after_results
  rfl

/-- The grid has 128 points. -/
theorem lt_N (t : Fin cfg0.N) : t.val < 128 := lt_of_lt_of_eq t.isLt (show cfg0.N = 128 from N_0)

/-- Where the four input blocks of grid point `t` sit: block row `t`, block column `0`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0)

/-- Grid point `t`'s anchor block: rows `8192 t …` of the anchor array. -/
theorem iblk0_apply (c : Dev nD) (t : Fin cfg0.N) (q : Fin 8192) (k : Fin 64) :
    (iblk m c 0 t : Vec F S8192x64 .f32) (ix2 q k)
      = m ((c : Thread nD τ).loc main_arg0) (ix2 (tileRow t.val (lt_N t) q) k) := by
  unfold iblk
  rw [View.read_apply]
  show V m c main_arg0 _ = _
  rw [V_main_arg0]
  refine congrArg _ (funext fun a => Fin.ext ?_)
  match a with
  | ⟨0, _⟩ => show win0_0.index t 0 * 8192 + 1 * q.val = 8192 * t.val + q.val; rw [(idx_facts t).1]; omega
  | ⟨1, _⟩ => show win0_0.index t 1 * 64 + 1 * k.val = k.val; rw [(idx_facts t).2.1]; omega

/-- Grid point `t`'s positive block: rows `8192 t …` of the positive array. -/
theorem iblk1_apply (c : Dev nD) (t : Fin cfg0.N) (q : Fin 8192) (k : Fin 64) :
    (iblk m c 1 t : Vec F S8192x64 .f32) (ix2 q k)
      = m ((c : Thread nD τ).loc main_arg1) (ix2 (tileRow t.val (lt_N t) q) k) := by
  unfold iblk
  rw [View.read_apply]
  show V m c main_arg1 _ = _
  rw [V_main_arg1]
  refine congrArg _ (funext fun a => Fin.ext ?_)
  match a with
  | ⟨0, _⟩ => show win0_1.index t 0 * 8192 + 1 * q.val = 8192 * t.val + q.val; rw [(idx_facts t).2.2.1]; omega
  | ⟨1, _⟩ => show win0_1.index t 1 * 64 + 1 * k.val = k.val; rw [(idx_facts t).2.2.2.1]; omega

/-- Grid point `t`'s negative block: rows `8192 t …` of the negative array. -/
theorem iblk2_apply (c : Dev nD) (t : Fin cfg0.N) (q : Fin 8192) (k : Fin 64) :
    (iblk m c 2 t : Vec F S8192x64 .f32) (ix2 q k)
      = m ((c : Thread nD τ).loc main_arg2) (ix2 (tileRow t.val (lt_N t) q) k) := by
  unfold iblk
  rw [View.read_apply]
  show V m c main_arg2 _ = _
  rw [V_main_arg2]
  refine congrArg _ (funext fun a => Fin.ext ?_)
  match a with
  | ⟨0, _⟩ => show win0_2.index t 0 * 8192 + 1 * q.val = 8192 * t.val + q.val; rw [(idx_facts t).2.2.2.2.1]; omega
  | ⟨1, _⟩ => show win0_2.index t 1 * 64 + 1 * k.val = k.val; rw [(idx_facts t).2.2.2.2.2.1]; omega

/-- Grid point `t`'s margin block at position `(r / 128, r % 128)`: the margin of row `8192 t + r`. -/
theorem iblk3_apply (c : Dev nD) (t : Fin cfg0.N) (r : Fin 8192) :
    (iblk m c 3 t : Vec F S64x128 .f32) (unflat r)
      = marginVec (m ((c : Thread nD τ).loc main_arg3)) (m ((c : Thread nD τ).loc main_arg4))
          (m ((c : Thread nD τ).loc main_arg5)) (ix1 (tileRow t.val (lt_N t) r)) := by
  unfold iblk
  rw [View.read_apply]
  show V m c main_v14 _ = _
  rw [V_main_v14]
  refine shapeCast_apply _ shapeCasts_S1048576_S8192x128 _ _ ?_
  rw [Shape.rowMajor_val_one, Shape.rowMajor_val_two]
  have hr := r.isLt
  show 8192 * t.val + r.val = (win0_3.index t 0 * 64 + 1 * (r.val / 128)) * 128 + (win0_3.index t 1 * 128 + 1 * (r.val % 128))
  rw [(idx_facts t).2.2.2.2.2.2.1, (idx_facts t).2.2.2.2.2.2.2]
  omega

end Cert.KernelIdeal.BlockReads

end
-- ==== Proof.Accumulate.lean ====
/-
  The accumulator block after each grid step, in closed form.

  The 128 grid steps form 2 runs of 64.  The first step of a run leaves `0 + tile` in the accumulator block, every later
  step adds its own tile's share of the loss to what the step before left.  So after step `t` every entry of the block holds
  `0 +` the sum of the shares of the tiles `64 (t / 64) … t` — the run's fold unrolled into a sum, by induction along
  the run and never over the grid.
-/
import proofs.«144376_j25890062860767_2_alg».proof.Proof.CaseValues
import proofs.«144376_j25890062860767_2_alg».proof.Proof.TilePayload
import proofs.«144376_j25890062860767_2_alg».proof.Proof.BlockReads

noncomputable section

open scoped BigOperators

namespace Cert.KernelIdeal.LossValue

open Cert.KernelIdeal Cert.KernelIdeal.Gen Idealize.ShloMosaic Idealize.ShloMosaic.TcCoe Idealize.SL.Sem
open Idealize.ShloMosaic.ValueIdx Cert.TripletLoss
open Cert.KernelIdeal.CaseValues Cert.KernelIdeal.TileValue Cert.KernelIdeal.BlockReads

variable (m : (ℓ : Loc nD τ sig) → Buf (Elt Ideal) ℓ)

/-- The anchor, positive and negative arrays as launched, and the margin of each row. -/
def anchor (c : Dev nD) : (⟨2, ![1048576, 64]⟩ : Shape).Idx → EReal := m ((c : Thread nD τ).loc main_arg0)
def positive (c : Dev nD) : (⟨2, ![1048576, 64]⟩ : Shape).Idx → EReal := m ((c : Thread nD τ).loc main_arg1)
def negative (c : Dev nD) : (⟨2, ![1048576, 64]⟩ : Shape).Idx → EReal := m ((c : Thread nD τ).loc main_arg2)
def margin (c : Dev nD) : Fin 1048576 → EReal := fun i =>
  marginVec (F := Ideal) (m ((c : Thread nD τ).loc main_arg3)) (m ((c : Thread nD τ).loc main_arg4))
    (m ((c : Thread nD τ).loc main_arg5)) (ix1 i)

/-- What grid step `n` adds: tile `n`'s share of the loss. -/
def addend (c : Dev nD) (n : ℕ) : EReal := tileLoss (anchor m c) (positive m c) (negative m c) (margin m c) n

/-- The total of the blocks step `t` reads is tile `t`'s share. -/
theorem tile_total (c : Dev nD) (t : Fin cfg0.N) :
    total (iblk m c 0 t : Vec Ideal S8192x64 .f32) (iblk m c 1 t : Vec Ideal S8192x64 .f32) (iblk m c 2 t : Vec Ideal S8192x64 .f32)
      (fun r => (iblk m c 3 t : Vec Ideal S64x128 .f32) (unflat r)) = addend m c t.val :=
  total_tile (anchor m c) (positive m c) (negative m c) (margin m c) _ _ _ _ t.val (lt_N t)
    (iblk0_apply m c t) (iblk1_apply m c t) (iblk2_apply m c t) (iblk3_apply m c t)

/-- The first step of a run leaves `0 +` its tile's share. -/
theorem step_first (c : Dev nD) (n : ℕ) (h : n < cfg0.N) (h0 : n % 64 = 0) :
    outsAt0 m c n h = fun _ => 0 + addend m c n := by
  refine (outsAt0_A m c ⟨n, h⟩ h0).trans ((out_A c (grid0.coords ⟨n, h⟩) (ms0_0 ⟨n, h⟩) (hs0_0 ⟨n, h⟩) (ms0_1 ⟨n, h⟩) (hs0_1 ⟨n, h⟩)
    (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr h0)
    (iblk m c 0 ⟨n, h⟩) (iblk m c 1 ⟨n, h⟩) (iblk m c 2 ⟨n, h⟩) (iblk m c 3 ⟨n, h⟩)).trans (funext fun y => ?_))
  refine (pay2_apply (iblk m c 0 ⟨n, h⟩) (iblk m c 1 ⟨n, h⟩) (iblk m c 2 ⟨n, h⟩) (iblk m c 3 ⟨n, h⟩) (k0_pay1 (F := Ideal)) y).trans ?_
  exact congrArg₂ (· + ·) Ideal.ofBits_zero_f32 (tile_total m c ⟨n, h⟩)

/-- Every other step adds its tile's share to what the step before left. -/
theorem step_next (c : Dev nD) (n : ℕ) (h : n + 1 < cfg0.N) (h0 : ¬(n + 1) % 64 = 0) :
    outsAt0 m c (n + 1) h = fun y => outsAt0 m c n (Nat.lt_of_succ_lt h) y + addend m c (n + 1) := by
  refine (outsAt0_B m c ⟨n + 1, h⟩ h0).trans ((out_B c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hc => h0 ((hcond0_0 ⟨n + 1, h⟩).mp hc))
    (iblk m c 0 ⟨n + 1, h⟩) (iblk m c 1 ⟨n + 1, h⟩) (iblk m c 2 ⟨n + 1, h⟩) (iblk m c 3 ⟨n + 1, h⟩)
    (outsAt0 m c n (Nat.lt_of_succ_lt h))).trans (funext fun y => ?_))
  refine (pay2_apply (iblk m c 0 ⟨n + 1, h⟩) (iblk m c 1 ⟨n + 1, h⟩) (iblk m c 2 ⟨n + 1, h⟩) (iblk m c 3 ⟨n + 1, h⟩)
    (outsAt0 m c n (Nat.lt_of_succ_lt h)) y).trans ?_
  exact congrArg (outsAt0 m c n (Nat.lt_of_succ_lt h) y + ·) (tile_total m c ⟨n + 1, h⟩)

/-- After step `t` every entry of the accumulator block is `0 +` the shares of the run's tiles up to `t`. -/
theorem acc_eq (c : Dev nD) (t : ℕ) (ht : t < cfg0.N) (y : S1x8x128.Idx) :
    outsAt0 m c t ht y = 0 + ∑ s ∈ Finset.range (t % 64 + 1), addend m c (64 * (t / 64) + s) := by
  have h' : 64 * (t / 64) + t % 64 < cfg0.N := by rw [Nat.div_add_mod]; exact ht
  rw [Pipeline.eq_accAt_of_mod (outsAt0 m c) 64 (fun n _ => fun _ => 0 + addend m c n)
    (fun n _ acc => fun y => acc y + addend m c n) (step_first m c) (step_next m c) (by decide) t ht h']
  exact Pipeline.accAt_add_apply (fun n _ => fun (_ : S1x8x128.Idx) => 0 + addend m c n)
    (fun n _ acc => fun y => acc y + addend m c n) (fun _ => 0) (fun n _ => addend m c n) (64 * (t / 64)) 63
    (fun _ _ => rfl) (fun _ _ _ _ _ _ => rfl) (t % 64) (by omega) h' y

end Cert.KernelIdeal.LossValue

end
-- ==== Proof.LossMean.lean ====
/-
  The mean loss: the sum of all rows' hinges divided by the number of rows, 1048576 (the float word `0x49800000`).
  Both programs end with this same division, so the quotient is carried as one term and never opened.
-/
import proofs.«144376_j25890062860767_2_alg».proof.Proof.LossSpec

noncomputable section

namespace Cert.TripletLoss

open Idealize.ShloMosaic

/-- The total of the hinges divided by the row count. -/
def lossMean (a p n : (⟨2, ![1048576, 64]⟩ : Shape).Idx → EReal) (mg : Fin 1048576 → EReal) : EReal :=
  FloatOps.hostDivf (F := Ideal) (φ := .f32) (total a p n mg) (Ideal.ofBits .f32 0x49800000#32)

end Cert.TripletLoss

end
-- ==== Proof.KernelRun.lean ====
/-
  The kernel's run, read as a value.

  The result array of the region is 2 × 8 × 128: block `g` (one per run of 64 steps) is written back once, after the run's
  last step, and every entry of it holds `0 +` the sum of the run's 64 tile shares.  The lines after the region take entry
  `(g, 0, 0)` of each block, add the two from `0` and divide by the row count: the mean loss.
-/
import proofs.«144376_j25890062860767_2_alg».proof.Proof.Accumulate
import proofs.«144376_j25890062860767_2_alg».proof.Proof.LossMean
import Idealize.ShloMosaic.Lib.Pipeline.Value
import Idealize.ShloMosaic.Lib.StableHlo.Run
import Idealize.ShloMosaic.PureOps.Ideal.Laws

noncomputable section

open scoped BigOperators

namespace Cert.KernelIdeal.LossValue

open Cert.KernelIdeal Cert.KernelIdeal.Gen Idealize.ShloMosaic Idealize.ShloMosaic.TcCoe Idealize.SL.Sem
open Idealize.ShloMosaic.ValueIdx Cert.TripletLoss
open Idealize.ShloMosaic.Pipeline (Dat)
open Cert.KernelIdeal.BlockReads

variable (m : (ℓ : Loc nD τ sig) → Buf (Elt Ideal) ℓ) (ρ : Dev nD → PrngReg)

/-- The region's result array: every entry of block `g` is `0 +` the sum of run `g`'s 64 tile shares. -/
def partials (c : Dev nD) : S2x8x128.Idx → EReal := fun i => 0 + ∑ s ∈ Finset.range 64, addend m c (64 * (i 0).val + s)

/-- Where the result block of grid point `t` sits (block `t / 64` along the first axis) and its extents. -/
theorem idx4_facts : ∀ t : Fin cfg0.N,
    win0_4.index t (0 : Fin 3) = t.val / 64 ∧ win0_4.index t (1 : Fin 3) = 0 ∧ win0_4.index t (2 : Fin 3) = 0
    ∧ win0_4.xsize (grid0.coords t) (0 : Fin 3) = 1 ∧ win0_4.xsize (grid0.coords t) (1 : Fin 3) = 8
    ∧ win0_4.xsize (grid0.coords t) (2 : Fin 3) = 128 :=
  (by decide +kernel : ∀ t : Fin grid0.N,
    win0_4.index t (0 : Fin 3) = t.val / 64 ∧ win0_4.index t (1 : Fin 3) = 0 ∧ win0_4.index t (2 : Fin 3) = 0
    ∧ win0_4.xsize (grid0.coords t) (0 : Fin 3) = 1 ∧ win0_4.xsize (grid0.coords t) (1 : Fin 3) = 8
    ∧ win0_4.xsize (grid0.coords t) (2 : Fin 3) = 128)

/-- What the write-back after a run's last step writes is that block of `partials`. -/
theorem flushed_eq (c : Dev nD) (t : Fin cfg0.N) (hf : (cfg0.win 4).flush t = true) :
    (dats m 0 c).flushed 4 t = ((cfg0.win 4).blk t).view.read (Elt Ideal) (partials m c) := by
  have h63 : t.val % 64 = 63 := (flush0_4 t).mp hf
  show (cfg0.win 4).cut (grid0.coords t) ((dats m 0 c).after 4 t) = _
  rw [after0_4]
  funext y
  show outsAt0 m c t.val t.isLt y = partials m c (((cfg0.win 4).blk t).view.emb y)
  rw [acc_eq, h63]
  unfold partials
  refine congrArg (0 + ·) (Finset.sum_congr rfl fun s _ => congrArg (fun k => addend m c (64 * k + s)) ?_)
  have hy : (y 0).val < win0_4.xsize (grid0.coords t) (0 : Fin 3) := (y 0).isLt
  show t.val / 64 = win0_4.index t (0 : Fin 3) * 1 + 1 * (y 0).val
  rw [(idx4_facts t).1]
  rw [(idx4_facts t).2.2.2.1] at hy
  omega

/-- Every entry of the result array lies in the block written back after its run's last step. -/
theorem cover (c : Dev nD) (i : S2x8x128.Idx) :
    ∃ t : Fin cfg0.N, (cfg0.win 4).flush t = true ∧ i ∈ ((cfg0.win 4).blk t).view.set := by
  have hN : cfg0.N = 128 := N_0
  have h0 : (i 0).val < 2 := (i 0).isLt
  have h1 : (i 1).val < 8 := (i 1).isLt
  have h2 : (i 2).val < 128 := (i 2).isLt
  have hT : 64 * (i 0).val + 63 < cfg0.N := by omega
  refine ⟨⟨64 * (i 0).val + 63, hT⟩, (flush0_4 _).mpr (by show (64 * (i 0).val + 63) % 64 = 63; omega), ?_⟩
  show i ∈ ((View.whole main_v15).slice (win0_4.rect ⟨64 * (i 0).val + 63, hT⟩)).set
  rw [View.set_slice_whole, Rect.mem_set_unit]
  obtain ⟨e0, e1, e2, s0, s1, s2⟩ := idx4_facts ⟨64 * (i 0).val + 63, hT⟩
  intro a
  match a with
  | ⟨0, _⟩ =>
    show win0_4.index ⟨64 * (i 0).val + 63, hT⟩ 0 * win0_4.size 0 ≤ (i 0 : Nat)
      ∧ (i 0 : Nat) < win0_4.index ⟨64 * (i 0).val + 63, hT⟩ 0 * win0_4.size 0 + win0_4.xsize (grid0.coords ⟨64 * (i 0).val + 63, hT⟩) 0
    rw [e0, s0]; show (64 * (i 0).val + 63) / 64 * 1 ≤ (i 0 : Nat) ∧ (i 0 : Nat) < (64 * (i 0).val + 63) / 64 * 1 + 1; omega
  | ⟨1, _⟩ =>
    show win0_4.index ⟨64 * (i 0).val + 63, hT⟩ 1 * win0_4.size 1 ≤ (i 1 : Nat)
      ∧ (i 1 : Nat) < win0_4.index ⟨64 * (i 0).val + 63, hT⟩ 1 * win0_4.size 1 + win0_4.xsize (grid0.coords ⟨64 * (i 0).val + 63, hT⟩) 1
    rw [e1, s1]; omega
  | ⟨2, _⟩ =>
    show win0_4.index ⟨64 * (i 0).val + 63, hT⟩ 2 * win0_4.size 2 ≤ (i 2 : Nat)
      ∧ (i 2 : Nat) < win0_4.index ⟨64 * (i 0).val + 63, hT⟩ 2 * win0_4.size 2 + win0_4.xsize (grid0.coords ⟨64 * (i 0).val + 63, hT⟩) 2
    rw [e2, s2]; omega

/-- So the region's result array ends holding `partials`. -/
theorem final (c : Dev nD) : (dats m 0 c).arrAt 4 cfg0.N = partials m c :=
  (dats m 0 c).arrAt_eq_of_cover 4 (partials m c) (flushed_eq m c) (cover c)

/-- The lines after the region over any 2 × 8 × 128 array `X`: entries `(0, 0, 0)` and `(1, 0, 0)` added from `0`, divided
    by the row count. -/
theorem tail_pure (X : S2x8x128.Idx → EReal) :
    Host.divf (F := Ideal)
        (Host.reduceAdd (F := Ideal)
          (shapeCast S2 (extractStridedSlice S2x1x1 ![0, 0, 0] X slices_S2x8x128_S2x1x1_0_0_0) shapeCasts_S2x1x1_S2)
          (constant S_ .f32 0x00000000#32) reducesTo_S2_S_d0 h_S_)
        (constant S_ .f32 0x49800000#32)
      = fun _ => FloatOps.hostDivf (F := Ideal) (φ := .f32)
          (X (ix3 (0 : Fin 2) (0 : Fin 8) (0 : Fin 128)) + X (ix3 (1 : Fin 2) (0 : Fin 8) (0 : Fin 128)))
          (Ideal.ofBits .f32 0x49800000#32) := by
  have pick : ∀ g : Fin 2, shapeCast S2 (extractStridedSlice S2x1x1 ![0, 0, 0] X slices_S2x8x128_S2x1x1_0_0_0)
      shapeCasts_S2x1x1_S2 (ix1 g) = X (ix3 g (0 : Fin 8) (0 : Fin 128)) := fun g =>
    (shapeCast_apply _ shapeCasts_S2x1x1_S2 (ix1 g) (ix3 g (0 : Fin 1) (0 : Fin 1)) (by
      rw [Shape.rowMajor_val_three, Shape.rowMajor_val_one]
      show (g.val * 1 + 0) * 1 + 0 = g.val
      omega)).trans
    (extractStridedSlice_apply _ X slices_S2x8x128_S2x1x1_0_0_0 _ (ix3 g (0 : Fin 8) (0 : Fin 128)) (fun a => by
      match a with
      | ⟨0, _⟩ => show g.val = 0 + g.val; omega
      | ⟨1, _⟩ => rfl
      | ⟨2, _⟩ => rfl))
  funext j
  show FloatOps.hostDivf (F := Ideal) (φ := .f32) (Host.reduceAdd (F := Ideal)
      (shapeCast S2 (extractStridedSlice S2x1x1 ![0, 0, 0] X slices_S2x8x128_S2x1x1_0_0_0) shapeCasts_S2x1x1_S2)
      (constant S_ .f32 0x00000000#32) reducesTo_S2_S_d0 h_S_ j) (Ideal.ofBits .f32 0x49800000#32) = _
  refine congrArg (fun z => FloatOps.hostDivf (F := Ideal) (φ := .f32) z (Ideal.ofBits .f32 0x49800000#32)) ?_
  simp only [Host.reduceAdd, Ideal.hostReduceAdd_def]
  rw [Ideal.hostReduceAdd_total reducesTo_S2_S_d0 (fun b => b.elim0), sum_idx1, Fin.sum_univ_two, pick, pick]
  show Ideal.ofBits .f32 0x00000000#32 + _ = _
  rw [Ideal.ofBits_zero_f32, zero_add]

/-- The lines after the region, applied to the region's result array: the mean loss. -/
theorem tail_eq (c : Dev nD) :
    Pipeline.afterTail₀ cfgs (dats m) 0 (V0 m) [hostOps1] c main_v19
      = fun _ => lossMean (anchor m c) (positive m c) (negative m c) (margin m c) := by
  unfold Pipeline.afterTail₀
  show StableHlo.after hostOps1 _ (Proc.devRef .tc main_v19) = _
  after_results
  rw [show Pipeline.withArrays (cfgs 0).spec c (V0 m c) (fun w => (dats m 0 c).arrAt w (cfgs 0).N) (Proc.devRef .tc main_v15)
      = partials m c from (Pipeline.withArrays_arr spec0 launch0.win.arr_inj c _ _ 4).trans (final m c)]
  refine (tail_pure (partials m c)).trans (funext fun _ => ?_)
  unfold lossMean
  refine congrArg (fun z => FloatOps.hostDivf (F := Ideal) (φ := .f32) z (Ideal.ofBits .f32 0x49800000#32)) ?_
  rw [total_eq_runs, Fin.sum_univ_two]
  unfold partials addend
  rw [zero_add, zero_add]

/-- The kernel's run, read: its result at the mean loss of the arrays as launched, the arguments unchanged. -/
theorem run : θ_run defs (onTc (τ := τ) (main (F := Ideal))) ⟨m, fun _ => 0, ρ⟩ fun r => ∀ c : Dev nD,
      r.2.mem ((c.tc : Thread nD τ).loc main_v19) = (fun _ => lossMean (anchor m c) (positive m c) (negative m c) (margin m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v19 (Pipeline.mem_restRefs_of main_v19 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.LossValue

end
-- ==== Proof.RefLoss.lean ====
/-
  The reference computes the mean loss.

  Row by row it takes the two squared distances as sums over the 64 columns (each started from `0`), their difference plus
  the row's margin, cut at zero; it sums the rows from `0` and divides by the row count.  Adding the starting `0` changes
  nothing in the extended reals, so the result is `lossMean` of the arguments, with the reference's own gathered margins.
-/
import proofs.«144376_j25890062860767_2_alg».proof.Proof.Gen.ReferenceIdeal.Read
import proofs.«144376_j25890062860767_2_alg».proof.Proof.LossMean
import Idealize.ShloMosaic.PureOps.Ideal.Laws

noncomputable section

open scoped BigOperators

namespace Cert.ReferenceIdeal.RefLoss

open Cert.ReferenceIdeal Cert.ReferenceIdeal.Read Idealize.ShloMosaic Idealize.ShloMosaic.ValueIdx Cert.TripletLoss

/-- The reference's positive distance of row `r`. -/
theorem v2_apply (x0 x1 : (⟨S1048576x64, .f32⟩ : BufTy).Contents (Elt Ideal)) (r : Fin 1048576) :
    val_main_v2 (F := Ideal) x0 x1 (ix1 r) = sqd x0 x1 r := by
  rw [val_main_v2_apply]
  show Ideal.ofBits .f32 0x00000000#32 + _ = _
  rw [Ideal.ofBits_zero_f32, zero_add]
  unfold sqd
  refine Finset.sum_congr rfl fun k _ => ?_
  have e : idx_main_v2 (ix1 r) k = ix2 r k :=
    funext fun a => Fin.ext (by match a with | ⟨0, _⟩ => rfl | ⟨1, _⟩ => rfl)
  rw [e]; rfl

/-- The reference's negative distance of row `r`. -/
theorem v5_apply (x0 x2 : (⟨S1048576x64, .f32⟩ : BufTy).Contents (Elt Ideal)) (r : Fin 1048576) :
    val_main_v5 (F := Ideal) x0 x2 (ix1 r) = sqd x0 x2 r := by
  rw [val_main_v5_apply]
  show Ideal.ofBits .f32 0x00000000#32 + _ = _
  rw [Ideal.ofBits_zero_f32, zero_add]
  unfold sqd
  refine Finset.sum_congr rfl fun k _ => ?_
  have e : idx_main_v5 (ix1 r) k = ix2 r k :=
    funext fun a => Fin.ext (by match a with | ⟨0, _⟩ => rfl | ⟨1, _⟩ => rfl)
  rw [e]; rfl

/-- The reference's result is the mean loss of its arguments, over its own gathered margins. -/
theorem ref_loss (x0 x1 x2 : (⟨S1048576x64, .f32⟩ : BufTy).Contents (Elt Ideal))
    (x3 x4 : (⟨S1048576, .i32⟩ : BufTy).Contents (Elt Ideal)) (x5 : (⟨S10x10, .f32⟩ : BufTy).Contents (Elt Ideal)) (i : S_.Idx) :
    val_main_v24 (F := Ideal) x0 x1 x2 x3 x4 x5 i
      = lossMean x0 x1 x2 (fun r => val_main_v19 (F := Ideal) x3 x4 x5 (ix1 r)) := by
  rw [val_main_v24_apply, val_main_v23_apply, val_main_cst_4_apply, val_main_cst_5_apply, Ideal.ofBits_def, Ideal.ofBits_def,
    Ideal.ofBits_zero_f32, zero_add, sum_idx1]
  unfold lossMean total
  refine congrArg (fun z => FloatOps.hostDivf (F := Ideal) (φ := .f32) z (Ideal.ofBits .f32 0x49800000#32)) ?_
  refine Finset.sum_congr rfl fun r _ => ?_
  rw [val_main_v22_apply, val_main_v21_apply, val_main_v20_apply, v2_apply, v5_apply, val_main_call0_v0_apply,
    val_main_call0_cst_apply, Ideal.ofBits_def, Ideal.ofBits_zero_f32]
  rfl

end Cert.ReferenceIdeal.RefLoss

end
-- ==== Proof.Claims.lean ====
/-
  The five claims.

  Both idealized programs end with the mean loss of the same argument arrays: the kernel by summing, tile by tile and
  run by run, what the reference sums row by row (a regrouping of one sum in the extended reals), over margins both
  programs gather with the same lines before anything else is computed.  The frames are the generated ones (the
  reference's is its generated run with the result dropped), and the idealization rewrote nothing.
-/
import proofs.«144376_j25890062860767_2_alg».proof.Defs
import proofs.«144376_j25890062860767_2_alg».proof.Proof.Gen.Kernel.Frame
import proofs.«144376_j25890062860767_2_alg».proof.Proof.Gen.Pre_finite_inputs
import proofs.«144376_j25890062860767_2_alg».proof.Proof.KernelRun
import proofs.«144376_j25890062860767_2_alg».proof.Proof.RefLoss

noncomputable section

open Idealize.ShloMosaic Idealize.ShloMosaic.TcCoe Idealize.SL.Sem

namespace Cert.Proof.LossClaims

open Cert.TripletLoss Cert.KernelIdeal.LossValue

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both idealized programs end at the mean loss of those arguments. -/
theorem algebraic : Cert.algebraic_KernelIdeal_ReferenceIdeal := by
  intro m ρ m' ρ' _ hagree
  refine ⟨fun c => fun _ => lossMean (anchor m c) (positive m c) (negative m c) (margin m c),
    Cert.KernelIdeal.LossValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq]
  funext i
  rw [Cert.ReferenceIdeal.RefLoss.ref_loss, (hagree c).1, (hagree c).2.1, (hagree c).2.2.1, (hagree c).2.2.2.1,
    (hagree c).2.2.2.2.1, (hagree c).2.2.2.2.2]
  rfl

end Cert.Proof.LossClaims

end
-- ==== Proof.lean ====
/-
  A triplet loss with per-pair margins, computed by a tiled kernel, against its plain reference.

  For 1048576 rows of 64 features — anchor `a`, positive `p`, negative `n` — and a margin per row looked up in a 10 × 10
  table by the row's two labels, both programs compute the mean over the rows of
  `max (‖a − p‖² − ‖a − n‖² + margin) 0`.

  The reference sums the rows in one sweep.  The kernel walks 128 tiles of 8192 rows as 2 runs of 64 steps: each step
  adds its tile's total to an accumulator block that the first step of a run clears, each run's block is written back
  once, and the two run totals are added afterwards.  Over the extended reals addition is commutative and associative,
  so the two ways of summing agree without any hypothesis on the inputs; the squared distances, the hinge and the final
  division are the same operations on both sides, and the margins are gathered by the same lines in both programs.

  Modules: LossSpec (the loss as a function, and the regrouping of its sum), LossMean (the final division), TilePayload
  (one step's arithmetic as a tile total), CaseValues (what a step stores, per case), BlockReads (which rows a step
  reads), Accumulate (the accumulator after each step), KernelRun (the result array, the lines after the region, the
  kernel's run), RefLoss (the reference's result), Claims (the five claims).
-/
import proofs.«144376_j25890062860767_2_alg».proof.Defs
import proofs.«144376_j25890062860767_2_alg».proof.Proof.Gen.Kernel
import proofs.«144376_j25890062860767_2_alg».proof.Proof.Gen.Kernel.Skeleton
import proofs.«144376_j25890062860767_2_alg».proof.Proof.Gen.Kernel.Launch
import proofs.«144376_j25890062860767_2_alg».proof.Proof.Gen.Kernel.Points
import proofs.«144376_j25890062860767_2_alg».proof.Proof.Gen.Kernel.Frame
import proofs.«144376_j25890062860767_2_alg».proof.Proof.Gen.KernelIdeal
import proofs.«144376_j25890062860767_2_alg».proof.Proof.Gen.KernelIdeal.Skeleton
import proofs.«144376_j25890062860767_2_alg».proof.Proof.Gen.KernelIdeal.Launch
import proofs.«144376_j25890062860767_2_alg».proof.Proof.Gen.KernelIdeal.Points
import proofs.«144376_j25890062860767_2_alg».proof.Proof.Gen.KernelIdeal.Frame
import proofs.«144376_j25890062860767_2_alg».proof.Proof.Gen.ReferenceIdeal
import proofs.«144376_j25890062860767_2_alg».proof.Proof.Gen.Pre_finite_inputs
import proofs.«144376_j25890062860767_2_alg».proof.Proof.Gen.ReferenceIdeal.Run
import proofs.«144376_j25890062860767_2_alg».proof.Proof.Gen.ReferenceIdeal.Read
import proofs.«144376_j25890062860767_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.LossClaims.frame_k, Cert.Proof.LossClaims.frame_ki, Cert.Proof.LossClaims.frame_ri,
  Cert.Proof.LossClaims.preserves, Cert.Proof.LossClaims.algebraic⟩

end Cert.Proof

end
